-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S8 : S_.BroadcastsInDim S8 (![] : Fin 0 → Fin S8.rank)
  reducesTo_S8_S_d0 : S8.ReducesTo [0] S_
  bcast_S_S3072x8 : S_.BroadcastsInDim S3072x8 (![] : Fin 0 → Fin S3072x8.rank)
  reducesTo_S3072x8_S_d0_1 : S3072x8.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x3072 .f32) (main_arg5 : FVec F S768 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S768x3072 .f32 := Host.absf main_arg4
  let main_cst_6 : FVec F S_ .f32 := constant S_ .f32 0x7F800000#32
  let main_v20 : FVec F S768x3072 .f32 := broadcastInDim S768x3072 ![] bcast_S_S768x3072 main_cst_6
  let main_v21 : IVec S768x3072 1 := cmpf .olt main_v19 main_v20
  let main_c_7 : IVec S_ 1 := constantI S_ 1 1#1
  let main_v22 : IVec S_ 1 := (fun x v => Host.reduce IntOp.andi x v reducesTo_S768x3072_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S8x2048x768 .f32) (main_arg1 : FVec F S8 .f32) (main_arg2 : FVec F S3072x8 .f32) (main_arg3 : FVec F S3072 .f32) (main_arg4 : FVec F S768x3072 .f32) (main_arg5 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S3072x8 .f32 := Host.absf main_arg2
  let main_cst_2 : FVec F S_ .f32 := constant S_ .f32 0x7F800000#32
  let main_v10 : FVec F S3072x8 .f32 := broadcastInDim S3072x8 ![] bcast_S_S3072x8 main_cst_2
  let main_v11 : IVec S3072x8 1 := cmpf .olt main_v9 main_v10
  let main_c_3 : IVec S_ 1 := constantI S_ 1 1#1
  let main_v12 : IVec S_ 1 := (fun x v => Host.reduce IntOp.andi x v reducesTo_S3072x8_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S8x2048x768 : Shape := ⟨3, ![8, 2048, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S8x2048x8 : Shape := ⟨3, ![8, 2048, 8]⟩
abbrev S16384x8 : Shape := ⟨2, ![16384, 8]⟩
abbrev S8x3072 : Shape := ⟨2, ![8, 3072]⟩
abbrev S8x1 : Shape := ⟨2, ![8, 1]⟩
abbrev S3072x768 : Shape := ⟨2, ![3072, 768]⟩
abbrev S1x3072 : Shape := ⟨2, ![1, 3072]⟩
abbrev S1x768 : Shape := ⟨2, ![1, 768]⟩
abbrev S16384x768 : Shape := ⟨2, ![16384, 768]⟩
abbrev S1024x8 : Shape := ⟨2, ![1024, 8]⟩
abbrev S1024x768 : Shape := ⟨2, ![1024, 768]⟩
abbrev S8x768 : Shape := ⟨2, ![8, 768]⟩
abbrev S768x768 : Shape := ⟨2, ![768, 768]⟩

abbrev nBuf : Space → Nat
  | .hbm => 20
  | .vmem => 9
  | .smem => 0
  | _ => 0

abbrev bufTy : (tb : Table) → Fin (tcTables nBuf tb) → BufTy
  | .hbm, ⟨0, _⟩ => ⟨S8x2048x768, .f32⟩
  | .hbm, ⟨1, _⟩ => ⟨S8, .f32⟩
  | .hbm, ⟨2, _⟩ => ⟨S3072x8, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S8x2048x8, .f32⟩
  | .hbm, ⟨7, _⟩ => ⟨S16384x8, .f32⟩
  | .hbm, ⟨8, _⟩ => ⟨S8x3072, .f32⟩
  | .hbm, ⟨9, _⟩ => ⟨S8, .f32⟩
  | .hbm, ⟨10, _⟩ => ⟨S8x1, .f32⟩
  | .hbm, ⟨11, _⟩ => ⟨S8x3072, .f32⟩
  | .hbm, ⟨12, _⟩ => ⟨S8x3072, .f32⟩
  | .hbm, ⟨13, _⟩ => ⟨S8x3072, .bf16⟩
  | .hbm, ⟨14, _⟩ => ⟨S3072x768, .f32⟩
  | .hbm, ⟨15, _⟩ => ⟨S3072x768, .bf16⟩
  | .hbm, ⟨16, _⟩ => ⟨S1x3072, .f32⟩
  | .hbm, ⟨17, _⟩ => ⟨S1x768, .f32⟩
  | .hbm, ⟨18, _⟩ => ⟨S16384x768, .f32⟩
  | .hbm, ⟨19, _⟩ => ⟨S8x2048x768, .f32⟩
  | .local _ .vmem, ⟨0, _⟩ => ⟨S1024x8, .f32⟩
  | .local _ .vmem, ⟨1, _⟩ => ⟨S1024x8, .f32⟩
  | .local _ .vmem, ⟨2, _⟩ => ⟨S8x3072, .bf16⟩
  | .local _ .vmem, ⟨3, _⟩ => ⟨S1x3072, .f32⟩
  | .local _ .vmem, ⟨4, _⟩ => ⟨S3072x768, .bf16⟩
  | .local _ .vmem, ⟨5, _⟩ => ⟨S1x768, .f32⟩
  | .local _ .vmem, ⟨6, _⟩ => ⟨S1024x768, .f32⟩
  | .local _ .vmem, ⟨7, _⟩ => ⟨S1024x768, .f32⟩
  | .local _ .vmem, ⟨8, _⟩ => ⟨S1024x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c768_i32 : BitVec 32 := 768#32
  let v8 : BitVec 32 := Scalar.muli c0_i32 c768_i32
  v8
def k0_off1 (c0_i32 : BitVec 32) : Fin 2 → Nat :=
  let c0_3 : Index := 0#32
  let c768_i32 : BitVec 32 := 768#32
  let v8 : BitVec 32 := Scalar.muli c0_i32 c768_i32
  let v9 : BitVec 32 := v8
  let v10 : Index := Scalar.indexCast v9
  ![0, v10.toNat]
def k0_off2 (c0_i32 : BitVec 32) : Fin 2 → Nat :=
  let c0_4 : Index := 0#32
  let c768_i32 : BitVec 32 := 768#32
  let v8 : BitVec 32 := Scalar.muli c0_i32 c768_i32
  let v9 : BitVec 32 := v8
  let v13 : Index := Scalar.indexCast v9
  ![0, v13.toNat]
def k0_off3 (c0_i32 : BitVec 32) : Fin 2 → Nat :=
  let c768_i32 : BitVec 32 := 768#32
  let v8 : BitVec 32 := Scalar.muli c0_i32 c768_i32
  let v9 : BitVec 32 := v8
  let v22 : Index := Scalar.indexCast v9
  let c0_7 : Index := 0#32
  ![v22.toNat, 0]
def k0_mult2 : BitVec 32 :=
  let c1_i32 : BitVec 32 := 1#32
  let c768_i32_13 : BitVec 32 := 768#32
  let v31 : BitVec 32 := Scalar.muli c1_i32 c768_i32_13
  v31
def k0_mult3 : BitVec 32 :=
  let c2_i32 : BitVec 32 := 2#32
  let c768_i32_24 : BitVec 32 := 768#32
  let v54 : BitVec 32 := Scalar.muli c2_i32 c768_i32_24
  v54
def k0_mult4 : BitVec 32 :=
  let c3_i32 : BitVec 32 := 3#32
  let c768_i32_35 : BitVec 32 := 768#32
  let v77 : BitVec 32 := Scalar.muli c3_i32 c768_i32_35
  v77
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S8x2048x768_S8x2048x8_0_0_0 : S8x2048x768.Slices ![0, 0, 0] S8x2048x8
  shapeCasts_S8x2048x8_S16384x8 : S8x2048x8.ShapeCasts S16384x8
  transposes_S3072x8_S8x3072_1_0 : S3072x8.Transposes [1, 0] S8x3072
  bcast_S8_S8x1_0 : S8.BroadcastsInDim S8x1 (![0] : Fin 1 → Fin S8x1.rank)
  bcast_S8x1_S8x3072_0_1 : S8x1.BroadcastsInDim S8x3072 (![0, 1] : Fin 2 → Fin S8x3072.rank)
  bitsLt_bf16_f32 : FTy.bits .bf16 < FTy.bits .f32
  transposes_S768x3072_S3072x768_1_0 : S768x3072.Transposes [1, 0] S3072x768
  shapeCasts_S3072_S1x3072 : S3072.ShapeCasts S1x3072
  shapeCasts_S768_S1x768 : S768.ShapeCasts S1x768
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  h_S8x768 : 0 < S8x768.numel
  shapeCasts_S8x768_S8x768 : S8x768.ShapeCasts S8x768
  h_S1x768 : 0 < S1x768.numel
  shapeCasts_S1x768_S1x768 : S1x768.ShapeCasts S1x768
  broadcasts_S1x768_S1024x768 : S1x768.Broadcasts S1024x768
  h_S768x768 : 0 < S768x768.numel
  shapeCasts_S768x768_S768x768 : S768x768.ShapeCasts S768x768
  inb_S1x768_S1x768_0_0 : ∀ a, (![0, 0] : Fin 2 → Nat) a + S1x768.size a ≤ S1x768.size a
  shapeCasts_S16384x768_S8x2048x768 : S16384x768.ShapeCasts S8x2048x768
  dot_S1024x8_S8x768_S1024x768_1_0_0_1_n_n_wf : DotDims.WF S1024x8 S8x768 S1024x768 [1] [0] [0] [1] [] []
  dot_S1024x768_S768x768_S1024x768_1_0_0_1_n_n_wf : DotDims.WF S1024x768 S768x768 S1024x768 [1] [0] [0] [1] [] []
  hrank0 : 0 < grid0.rank
  k0_mult1_dvd : 128 ∣ k0_mult1.toNat
  k0_off1_inb : ∀ (r : Fin 4), ∀ a, (k0_off1 (BitVec.ofNat 32 r.val)) a + S8x768.size a ≤ S8x3072.size a
  k0_off2_inb : ∀ (r : Fin 4), ∀ a, (k0_off2 (BitVec.ofNat 32 r.val)) a + S1x768.size a ≤ S1x3072.size a
  k0_off3_inb : ∀ (r : Fin 4), ∀ a, (k0_off3 (BitVec.ofNat 32 r.val)) a + S768x768.size a ≤ S3072x768.size a
  k0_mult2_dvd : 128 ∣ k0_mult2.toNat
  k0_mult3_dvd : 128 ∣ k0_mult3.toNat
  k0_mult4_dvd : 128 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S16384x8.size a
  hwx0_0 : ∀ i : grid0.Coords, EltTy.bits .f32 = 32 ∨ (Rect.block (s := S16384x8) S1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3072.size a ≤ S8x3072.size a
  hwx0_1 : ∀ i : grid0.Coords, EltTy.bits .bf16 = 32 ∨ (Rect.block (s := S8x3072) S8x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x768.size a ≤ S3072x768.size a
  hwx0_3 : ∀ i : grid0.Coords, EltTy.bits .bf16 = 32 ∨ (Rect.block (s := S3072x768) S3072x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S16384x768.size a
  hwx0_5 : ∀ i : grid0.Coords, EltTy.bits .f32 = 32 ∨ (Rect.block (s := S16384x768) S1024x768.size (cc0_transform_5 i) (hinb0_5 i)).WholeWords (EltTy.packing .f32)

variable [Facts₀]

def dot_S1024x8_S8x768_S1024x768_1_0_0_1_n_n : DotDims S1024x8 S8x768 S1024x768 where
  lhsContracting := [1]
  rhsContracting := [0]
  lhsNonContracting := [0]
  rhsNonContracting := [1]
  lhsBatch := []
  rhsBatch := []
  wf := dot_S1024x8_S8x768_S1024x768_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v1) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S3072x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S8 : Shape := ⟨1, ![8]⟩
abbrev S3072x8 : Shape := ⟨2, ![3072, 8]⟩
abbrev S3072 : Shape := ⟨1, ![3072]⟩
abbrev S768x3072 : Shape := ⟨2, ![768, 3072]⟩
abbrev S768 : Shape := ⟨1, ![768]⟩
abbrev S8x2048x8 : Shape := ⟨3, ![8, 2048, 8]⟩
abbrev S1x1x8 : Shape := ⟨3, ![1, 1, 8]⟩
abbrev S8x2048x3072 : Shape := ⟨3, ![8, 2048, 3072]⟩
abbrev S1x1x3072 : Shape := ⟨3, ![1, 1, 3072]⟩
abbrev S_ : Shape := ⟨0, ![]⟩
abbrev S1x1x768 : Shape := ⟨3, ![1, 1, 768]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8, .f32⟩
  | .hbm, ⟨2, _⟩ => ⟨S3072x8, .f32⟩
  | .hbm, ⟨3, _⟩ => ⟨S3072, .f32⟩
  | .hbm, ⟨4, _⟩ => ⟨S768x3072, .f32⟩
  | .hbm, ⟨5, _⟩ => ⟨S768, .f32⟩
  | .hbm, ⟨6, _⟩ => ⟨S8x2048x8, .f32⟩
  | .hbm, ⟨7, _⟩ => ⟨S8x2048x8, .f32⟩
  | .hbm, ⟨8, _⟩ => ⟨S8, .f32⟩
  | .hbm, ⟨9, _⟩ => ⟨S1x1x8, .f32⟩
  | .hbm, ⟨10, _⟩ => ⟨S8x2048x8, .f32⟩
  | .hbm, ⟨11, _⟩ => ⟨S8x2048x8, .f32⟩
  | .hbm, ⟨12, _⟩ => ⟨S8x2048x3072, .f32⟩
  | .hbm, ⟨13, _⟩ => ⟨S1x1x3072, .f32⟩
  | .hbm, ⟨14, _⟩ => ⟨S8x2048x3072, .f32⟩
  | .hbm, ⟨15, _⟩ => ⟨S8x2048x3072, .f32⟩
  | .hbm, ⟨16, _⟩ => ⟨S_, .f32⟩
  | .hbm, ⟨17, _⟩ => ⟨S8x2048x3072, .f32⟩
  | .hbm, ⟨18, _⟩ => ⟨S8x2048x3072, .f32⟩
  | .hbm, ⟨19, _⟩ => ⟨S8x2048x768, .f32⟩
  | .hbm, ⟨20, _⟩ => ⟨S1x1x768, .f32⟩
  | .hbm, ⟨21, _⟩ => ⟨S8x2048x768, .f32⟩
  | .hbm, ⟨22, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x2048x768_S8x2048x8_0_0_0 : S8x2048x768.Slices ![0, 0, 0] S8x2048x8
  bcast_S8_S1x1x8_2 : S8.BroadcastsInDim S1x1x8 (![2] : Fin 1 → Fin S1x1x8.rank)
  bcast_S1x1x8_S8x2048x8_0_1_2 : S1x1x8.BroadcastsInDim S8x2048x8 (![0, 1, 2] : Fin 3 → Fin S8x2048x8.rank)
  bcast_S3072_S1x1x3072_2 : S3072.BroadcastsInDim S1x1x3072 (![2] : Fin 1 → Fin S1x1x3072.rank)
  bcast_S1x1x3072_S8x2048x3072_0_1_2 : S1x1x3072.BroadcastsInDim S8x2048x3072 (![0, 1, 2] : Fin 3 → Fin S8x2048x3072.rank)
  bcast_S_S8x2048x3072 : S_.BroadcastsInDim S8x2048x3072 (![] : Fin 0 → Fin S8x2048x3072.rank)
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  dot_S8x2048x8_S3072x8_S8x2048x3072_2_1_01_0_n_n_wf : DotDims.WF S8x2048x8 S3072x8 S8x2048x3072 [2] [1] [0, 1] [0] [] []
  dot_S8x2048x3072_S768x3072_S8x2048x768_2_1_01_0_n_n_wf : DotDims.WF S8x2048x3072 S768x3072 S8x2048x768 [2] [1] [0, 1] [0] [] []

variable [Facts₀]

def dot_S8x2048x8_S3072x8_S8x2048x3072_2_1_01_0_n_n : DotDims S8x2048x8 S3072x8 S8x2048x3072 where
  lhsContracting := [2]
  rhsContracting := [1]
  lhsNonContracting := [0, 1]
  rhsNonContracting := [0]
  lhsBatch := []
  rhsBatch := []
  wf := dot_S8x2048x8_S3072x8_S8x2048x3072_2_1_01_0_n_n_wf
def dot_S8x2048x3072_S768x3072_S8x2048x768_2_1_01_0_n_n : DotDims S8x2048x3072 S768x3072 S8x2048x768 where
  lhsContracting := [2]
  rhsContracting := [1]
  lhsNonContracting := [0, 1]
  rhsNonContracting := [0]
  lhsBatch := []
  rhsBatch := []
  wf := dot_S8x2048x3072_S768x3072_S8x2048x768_2_1_01_0_n_n_wf

class Facts : Prop extends Facts₀ where

variable [Facts]
-- ==== Proof.Spec.lean ====
/-
  The result both programs compute, as ONE function of the six argument arrays over the extended reals, and the two
  laws that join the kernel's arrangement of it to the reference's.

  For a token (b, s) and an output channel e,
      G (b, s, e) = (∑ f < 3072, hidden (b, s, f) · w2 (e, f)) + b2 e,
      hidden (b, s, f) = max ((∑ q < 8, (cos x (b, s, q) · cos θ q) · w1 (f, q)) + b1 f) 0.
  The kernel multiplies cos θ into w1 beforehand, so its inner products are cos x · (w1 · cos θ): the same products,
  re-associated and commuted — multiplication of extended reals is a commutative monoid, infinities included, so no
  finiteness is needed. It also sums the 3072 hidden units as four runs of 768 added one after another to a zero:
  the same sum, since addition of extended reals is a commutative monoid too.
-/
import Idealize.ShloMosaic.PureOps.Ideal
import Idealize.ShloMosaic.Lib.ValueIdx

noncomputable section

namespace Cert.Spec

open Idealize.ShloMosaic Idealize.ShloMosaic.ValueIdx

/-- Channel `q` of the eight leading channels, as one of the 768 channels of `x`. -/
abbrev lead (q : Fin 8) : Fin 768 := Fin.castLE (by decide) q

/-- The pre-activation of hidden unit `f` for token `(b, s)`, in the reference's arrangement of the products. -/
def pre (x : (⟨3, ![8, 2048, 768]⟩ : Shape).Idx → EReal) (θ : (⟨1, ![8]⟩ : Shape).Idx → EReal)
    (w1 : (⟨2, ![3072, 8]⟩ : Shape).Idx → EReal) (b1 : (⟨1, ![3072]⟩ : Shape).Idx → EReal)
    (b : Fin 8) (s : Fin 2048) (f : Fin 3072) : EReal :=
  (∑ q : Fin 8, (Ideal.cos (x (ix3 b s (lead q))) * Ideal.cos (θ (ix1 q))) * w1 (ix2 f q)) + b1 (ix1 f)

/-- The same with cos θ multiplied into the weight first: the kernel's arrangement. -/
def preFolded (x : (⟨3, ![8, 2048, 768]⟩ : Shape).Idx → EReal) (θ : (⟨1, ![8]⟩ : Shape).Idx → EReal)
    (w1 : (⟨2, ![3072, 8]⟩ : Shape).Idx → EReal) (b1 : (⟨1, ![3072]⟩ : Shape).Idx → EReal)
    (b : Fin 8) (s : Fin 2048) (f : Fin 3072) : EReal :=
  (∑ q : Fin 8, Ideal.cos (x (ix3 b s (lead q))) * (w1 (ix2 f q) * Ideal.cos (θ (ix1 q)))) + b1 (ix1 f)

/-- Folding cos θ into the weight changes nothing: the products are re-associated and commuted. -/
theorem preFolded_eq (x : (⟨3, ![8, 2048, 768]⟩ : Shape).Idx → EReal) (θ : (⟨1, ![8]⟩ : Shape).Idx → EReal)
    (w1 : (⟨2, ![3072, 8]⟩ : Shape).Idx → EReal) (b1 : (⟨1, ![3072]⟩ : Shape).Idx → EReal)
    (b : Fin 8) (s : Fin 2048) (f : Fin 3072) : preFolded x θ w1 b1 b s f = pre x θ w1 b1 b s f := by
  unfold preFolded pre
  refine congrArg (· + b1 (ix1 f)) (Finset.sum_congr rfl fun q _ => ?_)
  rw [mul_comm (w1 (ix2 f q)), ← mul_assoc]

/-- One hidden unit's contribution to output channel `e`: the rectified pre-activation times its weight. -/
def term (x : (⟨3, ![8, 2048, 768]⟩ : Shape).Idx → EReal) (θ : (⟨1, ![8]⟩ : Shape).Idx → EReal)
    (w1 : (⟨2, ![3072, 8]⟩ : Shape).Idx → EReal) (b1 : (⟨1, ![3072]⟩ : Shape).Idx → EReal)
    (w2 : (⟨2, ![768, 3072]⟩ : Shape).Idx → EReal) (b : Fin 8) (s : Fin 2048) (e : Fin 768) (f : Fin 3072) : EReal :=
  max (pre x θ w1 b1 b s f) 0 * w2 (ix2 e f)

/-- THE RESULT: for token `(b, s)` and channel `e`, the sum over the hidden units plus the output bias. -/
def G (x : (⟨3, ![8, 2048, 768]⟩ : Shape).Idx → EReal) (θ : (⟨1, ![8]⟩ : Shape).Idx → EReal)
    (w1 : (⟨2, ![3072, 8]⟩ : Shape).Idx → EReal) (b1 : (⟨1, ![3072]⟩ : Shape).Idx → EReal)
    (w2 : (⟨2, ![768, 3072]⟩ : Shape).Idx → EReal) (b2 : (⟨1, ![768]⟩ : Shape).Idx → EReal) :
    (⟨3, ![8, 2048, 768]⟩ : Shape).Idx → EReal := fun i =>
  (∑ f : Fin 3072, term x θ w1 b1 w2 (i 0) (i 1) (i 2) f) + b2 (ix1 (i 2))

/-! ## The 3072 hidden units as four runs of 768 -/

/-- Hidden unit `768 c + j`: unit `j` of run `c`. -/
def unit (c : Fin 4) (j : Fin 768) : Fin 3072 :=
  ⟨c.val * 768 + j.val, by have := c.isLt; have := j.isLt; omega⟩

/-- Every hidden unit is unit `j` of run `c` for exactly one `(c, j)`: quotient and remainder by 768. -/
def unitEquiv : Fin 4 × Fin 768 ≃ Fin 3072 where
  toFun p := unit p.1 p.2
  invFun f := (⟨f.val / 768, by have := f.isLt; omega⟩, ⟨f.val % 768, Nat.mod_lt _ (by decide)⟩)
  left_inv p := by
    obtain ⟨c, j⟩ := p
    have hc := c.isLt
    have hj := j.isLt
    refine Prod.ext (Fin.ext ?_) (Fin.ext ?_)
    · show (c.val * 768 + j.val) / 768 = c.val; omega
    · show (c.val * 768 + j.val) % 768 = j.val; omega
  right_inv f := by
    apply Fin.ext
    show f.val / 768 * 768 + f.val % 768 = f.val
    omega

/-- A sum over the hidden units is the four runs' sums added one after another to a zero — in any commutative monoid. -/
theorem sum_runs {M : Type} [AddCommMonoid M] (g : Fin 3072 → M) :
    ∑ f, g f = (((0 + ∑ j, g (unit 0 j)) + ∑ j, g (unit 1 j)) + ∑ j, g (unit 2 j)) + ∑ j, g (unit 3 j) := by
  rw [← Equiv.sum_comp unitEquiv g, Fintype.sum_prod_type, Fin.sum_univ_four, zero_add]
  rfl

end Cert.Spec

end
-- ==== Proof.RefIsG.lean ====
/-
  The reference's result is `G`.

  Read one operation at a time, the reference slices the eight leading channels of `x`, takes cosines, multiplies by
  cos θ broadcast along the channels, contracts the channels with `w1`, adds `b1` broadcast along the hidden units,
  rectifies against a zero, contracts the hidden units with `w2` and adds `b2` broadcast along the output channels:
  entry by entry the sums and products that `G` spells, with the operands read at the same indices.
-/
import proofs.«175991_j65481071398675_2_alg».proof.Proof.Gen.ReferenceIdeal.Read
import proofs.«175991_j65481071398675_2_alg».proof.Proof.Spec
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Read Idealize.ShloMosaic.ValueIdx Cert.Spec

/-! ## Where each operation reads its operands -/

theorem at_hidden_l (b : Fin 8) (s : Fin 2048) (e : Fin 768) (k : Fin 3072) : lidx_main_v11 (ix3 b s e) k = ix3 b s k :=
  funext fun a => Fin.ext (by match a with | ⟨0, _⟩ => rfl | ⟨1, _⟩ => rfl | ⟨2, _⟩ => rfl)
theorem at_hidden_r (b : Fin 8) (s : Fin 2048) (e : Fin 768) (k : Fin 3072) : ridx_main_v11 (ix3 b s e) k = ix2 e k :=
  funext fun a => Fin.ext (by match a with | ⟨0, _⟩ => rfl | ⟨1, _⟩ => rfl)
theorem at_bias2 (b : Fin 8) (s : Fin 2048) (e : Fin 768) : idx_main_v12 (idx_main_v13 (ix3 b s e)) = ix1 e :=
  funext fun a => Fin.ext (by match a with | ⟨0, _⟩ => rfl)
theorem at_chan_l (b : Fin 8) (s : Fin 2048) (k : Fin 3072) (q : Fin 8) : lidx_main_v6 (ix3 b s k) q = ix3 b s q :=
  funext fun a => Fin.ext (by match a with | ⟨0, _⟩ => rfl | ⟨1, _⟩ => rfl | ⟨2, _⟩ => rfl)
theorem at_chan_r (b : Fin 8) (s : Fin 2048) (k : Fin 3072) (q : Fin 8) : ridx_main_v6 (ix3 b s k) q = ix2 k q :=
  funext fun a => Fin.ext (by match a with | ⟨0, _⟩ => rfl | ⟨1, _⟩ => rfl)
theorem at_bias1 (b : Fin 8) (s : Fin 2048) (k : Fin 3072) : idx_main_v7 (idx_main_v8 (ix3 b s k)) = ix1 k :=
  funext fun a => Fin.ext (by match a with | ⟨0, _⟩ => rfl)
theorem at_x (b : Fin 8) (s : Fin 2048) (q : Fin 8) : idx_main_v0 (ix3 b s q) = ix3 b s (lead q) :=
  funext fun a => Fin.ext (by match a with | ⟨0, _⟩ => rfl | ⟨1, _⟩ => rfl | ⟨2, _⟩ => rfl)
theorem at_theta (b : Fin 8) (s : Fin 2048) (q : Fin 8) : idx_main_v3 (idx_main_v4 (ix3 b s q)) = ix1 q :=
  funext fun a => Fin.ext (by match a with | ⟨0, _⟩ => rfl)

/-! ## The stages -/

/-- The product of the two cosines, at token `(b, s)` and channel `q`. -/
theorem coscos_apply (x0 : (⟨S8x2048x768, .f32⟩ : BufTy).Contents (Elt Ideal)) (x1 : (⟨S8, .f32⟩ : BufTy).Contents (Elt Ideal))
    (b : Fin 8) (s : Fin 2048) (q : Fin 8) :
    val_main_v5 (F := Ideal) x0 x1 (ix3 b s q) = Ideal.cos (x0 (ix3 b s (lead q))) * Ideal.cos (x1 (ix1 q)) := by
  rw [val_main_v5_apply, val_main_v1_apply, val_main_v0_apply, val_main_v4_apply, val_main_v3_apply, val_main_v2_apply,
    at_x, at_theta]
  rfl

/-- The rectified hidden unit `k` of token `(b, s)`. -/
theorem hidden_apply (x0 : (⟨S8x2048x768, .f32⟩ : BufTy).Contents (Elt Ideal)) (x1 : (⟨S8, .f32⟩ : BufTy).Contents (Elt Ideal))
    (x2 : (⟨S3072x8, .f32⟩ : BufTy).Contents (Elt Ideal)) (x3 : (⟨S3072, .f32⟩ : BufTy).Contents (Elt Ideal))
    (b : Fin 8) (s : Fin 2048) (k : Fin 3072) :
    val_main_v10 (F := Ideal) x0 x1 x2 x3 (ix3 b s k) = max (pre x0 x1 x2 x3 b s k) 0 := by
  rw [val_main_v10_apply, val_main_v9_apply, val_main_v6_apply, val_main_v8_apply, val_main_v7_apply,
    val_main_call0_v0_apply, val_main_call0_cst_apply, at_bias1]
  show max ((∑ q : Fin 8, _) + _) (Ideal.ofBits .f32 0x00000000#32) = _
  rw [Ideal.ofBits_zero_f32]
  unfold pre
  refine congrArg (max · 0) (congrArg (· + x3 (ix1 k)) (Finset.sum_congr rfl fun q _ => ?_))
  rw [at_chan_l, at_chan_r, coscos_apply]

/-- The reference's result is `G` of the six arguments. -/
theorem result_eq (x0 : (⟨S8x2048x768, .f32⟩ : BufTy).Contents (Elt Ideal)) (x1 : (⟨S8, .f32⟩ : BufTy).Contents (Elt Ideal))
    (x2 : (⟨S3072x8, .f32⟩ : BufTy).Contents (Elt Ideal)) (x3 : (⟨S3072, .f32⟩ : BufTy).Contents (Elt Ideal))
    (x4 : (⟨S768x3072, .f32⟩ : BufTy).Contents (Elt Ideal)) (x5 : (⟨S768, .f32⟩ : BufTy).Contents (Elt Ideal)) :
    val_main_v14 (F := Ideal) x0 x1 x2 x3 x4 x5 = G x0 x1 x2 x3 x4 x5 := by
  funext i
  obtain ⟨b, s, e, rfl⟩ : ∃ (b : Fin 8) (s : Fin 2048) (e : Fin 768), i = ix3 b s e := ⟨i 0, i 1, i 2, eq_ix3 i⟩
  rw [val_main_v14_apply, val_main_v11_apply, val_main_v13_apply, val_main_v12_apply, at_bias2]
  show (∑ k : Fin 3072, _) + _ = (∑ f : Fin 3072, term x0 x1 x2 x3 x4 b s e f) + x5 (ix1 e)
  refine congrArg (· + x5 (ix1 e)) (Finset.sum_congr rfl fun k _ => ?_)
  rw [at_hidden_l, at_hidden_r, hidden_apply]
  rfl

end Cert.ReferenceIdeal.RefValue

end
-- ==== Proof.Body.lean ====
/-
  What the kernel's body leaves in its output block at one grid point, as a pure function of the five input blocks.

  The body keeps a [1024, 768] accumulator in a scratch buffer. It zeroes it, then four times over — once per run of 768
  hidden units — loads that run's columns of the folded first weight, its slice of the first bias and its rows of the
  second weight, and adds  relu (cos x · W1 + b1) · W2  to the accumulator; at the end it stores accumulator + b2 to the
  output block. Every store writes the whole buffer and every read-back of the accumulator follows such a store, so each
  read-back is the payload just stored: the body is four applications of one function, `layer`, to the zero block.
-/
import proofs.«175991_j65481071398675_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- A load of a whole buffer reads the payload of the LATEST store when that store wrote the whole buffer, whatever
    was stored before it. -/
theorem readCov_latest {Val : EltTy → Type} [∀ e, Nonempty (Val e)] {sig : RefSig} {κ : Kind} {sp : Space} {S : Shape} {e : EltTy}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- Hidden units `o … o + 767` of the folded first weight [8, 3072]: its columns from `o`. -/
def w1Run (x1 : Vec F S8x3072 .bf16) (o : Nat) (h : o + 768 ≤ 3072) : Vec F S8x768 .bf16 :=
  View.ld x1 (Rect.unit (s := S8x3072) ![0, o] S8x768.size (Rect.inb₂ (by show 0 + 8 ≤ 8; omega) h))

/-- The same units of the first bias [1, 3072]. -/
def b1Run (x2 : Vec F S1x3072 .f32) (o : Nat) (h : o + 768 ≤ 3072) : Vec F S1x768 .f32 :=
  View.ld x2 (Rect.unit (s := S1x3072) ![0, o] S1x768.size (Rect.inb₂ (by show 0 + 1 ≤ 1; omega) h))

/-- The same units of the second weight [3072, 768]: its rows from `o`. -/
def w2Run (x3 : Vec F S3072x768 .bf16) (o : Nat) (h : o + 768 ≤ 3072) : Vec F S768x768 .bf16 :=
  View.ld x3 (Rect.unit (s := S3072x768) ![o, 0] S768x768.size (Rect.inb₂ h (by show 0 + 768 ≤ 768; omega)))

/-- One run of 768 hidden units added to the accumulator: `acc + relu (cos x · W1 + b1) · W2`. -/
def layer (x0 : Vec F S1024x8 .f32) (W1 : Vec F S8x768 .bf16) (B1 : Vec F S1x768 .f32) (W2 : Vec F S768x768 .bf16)
    (acc : FVec F S1024x768 .f32) : FVec F S1024x768 .f32 :=
  addf acc (matmul dot_S1024x768_S768x768_S1024x768_1_0_0_1_n_n none
    (truncf .bf16 (maximumf
      (addf (matmul dot_S1024x8_S8x768_S1024x768_1_0_0_1_n_n none (truncf .bf16 (cos x0) bitsLt_bf16_f32) W1
          (constant S1024x768 .f32 0x00000000#32))
        (broadcastTo S1024x768 B1 broadcasts_S1x768_S1024x768))
      (broadcast S1024x768 (Scalar.ofBits .f32 0x00000000#32))) bitsLt_bf16_f32)
    W2 (constant S1024x768 .f32 0x00000000#32))

/-- The zero block the accumulator starts from. -/
def zeroAcc : FVec F S1024x768 .f32 := broadcast S1024x768 (Scalar.ofBits .f32 0x00000000#32)

/-- The output block: the four runs added in order to the zero block, plus the second bias along the rows. -/
def body (x0 : Vec F S1024x8 .f32) (x1 : Vec F S8x3072 .bf16) (x2 : Vec F S1x3072 .f32) (x3 : Vec F S3072x768 .bf16)
    (x4 : Vec F S1x768 .f32) : FVec F S1024x768 .f32 :=
  addf
    (layer x0 (w1Run x1 2304 (by omega)) (b1Run x2 2304 (by omega)) (w2Run x3 2304 (by omega))
      (layer x0 (w1Run x1 1536 (by omega)) (b1Run x2 1536 (by omega)) (w2Run x3 1536 (by omega))
        (layer x0 (w1Run x1 768 (by omega)) (b1Run x2 768 (by omega)) (w2Run x3 768 (by omega))
          (layer x0 (w1Run x1 0 (by omega)) (b1Run x2 0 (by omega)) (w2Run x3 0 (by omega)) zeroAcc))))
    (broadcastTo S1024x768 x4 broadcasts_S1x768_S1024x768)

/-- What the body leaves in the output's staging buffer IS `body` of the input blocks: the output's one covering store
    leaves its payload, and each read-back of the accumulator is the payload of the store before it. -/
theorem out_eq (c : Dev nD) (i : grid0.Coords) (arg1 : Memref sig .tc .vmem S1024x8 .f32) (harg1 : arg1.IsWhole) (arg2 : Memref sig .tc .vmem S8x3072 .bf16) (harg2 : arg2.IsWhole) (arg3 : Memref sig .tc .vmem S1x3072 .f32) (harg3 : arg3.IsWhole) (arg4 : Memref sig .tc .vmem S3072x768 .bf16) (harg4 : arg4.IsWhole) (arg5 : Memref sig .tc .vmem S1x768 .f32) (harg5 : arg5.IsWhole) (arg6 : Memref sig .tc .vmem S1024x768 .f32) (harg6 : arg6.IsWhole) (arg7 : Memref sig .tc .vmem S1024x768 .f32) (harg7 : arg7.IsWhole)
    (x0 : Vec F S1024x8 .f32) (x1 : Vec F S8x3072 .bf16) (x2 : Vec F S1x3072 .f32) (x3 : Vec F S3072x768 .bf16) (x4 : Vec F S1x768 .f32) :
    out0_A_5 c i arg1 harg1 arg2 harg2 arg3 harg3 arg4 harg4 arg5 harg5 arg6 harg6 arg7 harg7 x0 x1 x2 x3 x4 = body x0 x1 x2 x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero hz]
  rw [readCov_latest (S := S1024x768) _ hz, readCov_latest (S := S1024x768) _ hz, readCov_latest (S := S1024x768) _ hz,
    readCov_latest (S := S1024x768) _ hz, readCov_latest (S := S1024x768) _ hz]
  unfold k0_pay1 k0_pay2 k0_pay3 k0_pay5 k0_pay6 k0_pay7 k0_pay8 k0_pay9 k0_pay4
  simp only [View.readAt_eq_ld, harg1.read_unread, harg2.read_unread, harg3.read_unread, harg4.read_unread,
    harg5.read_unread, View.ld_unit_zero (S := S1024x8) hz, View.ld_unit_zero (S := S1x768) hz, shapeCast_self]
  rfl

end Cert.KernelIdeal.Body

end
-- ==== Proof.LayerIdx.lean ====
/-
  One run of the body read at an entry, over the extended reals.

  Both matrix products contract one axis into a zero accumulator, so each entry is a plain sum over that axis; a change
  of float format is the identity, the rectifier is `max · 0`, and the bias row is added along the rows. So at row `r`
  and channel `e` a run adds   ∑ j < 768, max ((∑ q < 8, cos x (r, q) · W1 (q, j)) + b1 j) 0 · W2 (j, e)   to the accumulator.
-/
import proofs.«175991_j65481071398675_2_alg».proof.Proof.Body
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.Tactic

namespace Cert.KernelIdeal.Body

open Cert.KernelIdeal Cert.KernelIdeal.Gen Idealize.ShloMosaic.ValueIdx

/-! ## The first product, [1024, 8] × [8, 768]: rows of the left, columns of the right -/

theorem mm1_lhs0 (i : S1024x768.Idx) (q : dot_S1024x8_S8x768_S1024x768_1_0_0_1_n_n.contr.Idx) : (dot_S1024x8_S8x768_S1024x768_1_0_0_1_n_n.lhsIdx i q 0).val = (i 0).val := by
  unfold DotDims.lhsIdx
  rw [dif_neg (show ¬(0 : Fin S1024x8.rank) ∈ dot_S1024x8_S8x768_S1024x768_1_0_0_1_n_n.lhsBatch by decide), dif_pos (show (0 : Fin S1024x8.rank) ∈ dot_S1024x8_S8x768_S1024x768_1_0_0_1_n_n.lhsNonContracting by decide)]
  rfl

theorem mm1_rhs1 (i : S1024x768.Idx) (q : dot_S1024x8_S8x768_S1024x768_1_0_0_1_n_n.contr.Idx) : (dot_S1024x8_S8x768_S1024x768_1_0_0_1_n_n.rhsIdx i q 1).val = (i 1).val := by
  unfold DotDims.rhsIdx
  rw [dif_neg (show ¬(1 : Fin S8x768.rank) ∈ dot_S1024x8_S8x768_S1024x768_1_0_0_1_n_n.rhsBatch by decide), dif_pos (show (1 : Fin S8x768.rank) ∈ dot_S1024x8_S8x768_S1024x768_1_0_0_1_n_n.rhsNonContracting by decide)]
  rfl

/-- Entry `(r, j)` of the first product is the sum over the eight channels of left `(r, q)` times right `(q, j)`. -/
theorem mm1_apply (A : FVec Ideal S1024x8 .bf16) (B : FVec Ideal S8x768 .bf16) (r : Fin 1024) (j : Fin 768) :
    matmul (F := Ideal) dot_S1024x8_S8x768_S1024x768_1_0_0_1_n_n none A B (constant S1024x768 .f32 0x00000000#32) (ix2 r j) = ∑ q : Fin 8, A (ix2 r q) * B (ix2 q j) := by
  simp only [matmul]
  rw [Ideal.matmul_constant_zero_apply, ← Equiv.sum_comp (contrEquiv1 dot_S1024x8_S8x768_S1024x768_1_0_0_1_n_n 8 rfl rfl).symm]
  refine Finset.sum_congr rfl fun k _ => ?_
  have hk := contrEquiv1_symm_val dot_S1024x8_S8x768_S1024x768_1_0_0_1_n_n 8 rfl rfl k
  have el : dot_S1024x8_S8x768_S1024x768_1_0_0_1_n_n.lhsIdx (ix2 r j) ((contrEquiv1 dot_S1024x8_S8x768_S1024x768_1_0_0_1_n_n 8 rfl rfl).symm k) = ix2 r k := funext fun a => Fin.ext (by
    match a with
    | ⟨0, _⟩ => exact mm1_lhs0 _ _
    | ⟨1, _⟩ => exact (dot_S1024x8_S8x768_S1024x768_1_0_0_1_n_n.lhsIdx_val_of_single rfl _ _).trans hk)
  have er : dot_S1024x8_S8x768_S1024x768_1_0_0_1_n_n.rhsIdx (ix2 r j) ((contrEquiv1 dot_S1024x8_S8x768_S1024x768_1_0_0_1_n_n 8 rfl rfl).symm k) = ix2 k j := funext fun a => Fin.ext (by
    match a with
    | ⟨0, _⟩ => exact (dot_S1024x8_S8x768_S1024x768_1_0_0_1_n_n.rhsIdx_val_of_single rfl _ _).trans hk
    | ⟨1, _⟩ => exact mm1_rhs1 _ _)
  rw [el, er]

/-! ## The second product, [1024, 768] × [768, 768] -/

theorem mm2_lhs0 (i : S1024x768.Idx) (q : dot_S1024x768_S768x768_S1024x768_1_0_0_1_n_n.contr.Idx) : (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl

theorem mm2_rhs1 (i : S1024x768.Idx) (q : dot_S1024x768_S768x768_S1024x768_1_0_0_1_n_n.contr.Idx) : (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- Entry `(r, e)` of the second product is the sum over the run's 768 hidden units of left `(r, j)` times right `(j, e)`. -/
theorem mm2_apply (A : FVec Ideal S1024x768 .bf16) (B : FVec Ideal S768x768 .bf16) (r : Fin 1024) (e : Fin 768) :
    matmul (F := Ideal) dot_S1024x768_S768x768_S1024x768_1_0_0_1_n_n none A B (constant S1024x768 .f32 0x00000000#32) (ix2 r e) = ∑ j : Fin 768, A (ix2 r j) * B (ix2 j e) := by
  simp only [matmul]
  rw [Ideal.matmul_constant_zero_apply, ← Equiv.sum_comp (contrEquiv1 dot_S1024x768_S768x768_S1024x768_1_0_0_1_n_n 768 rfl rfl).symm]
  refine Finset.sum_congr rfl fun k _ => ?_
  have hk := contrEquiv1_symm_val dot_S1024x768_S768x768_S1024x768_1_0_0_1_n_n 768 rfl rfl k
  have el : dot_S1024x768_S768x768_S1024x768_1_0_0_1_n_n.lhsIdx (ix2 r e) ((contrEquiv1 dot_S1024x768_S768x768_S1024x768_1_0_0_1_n_n 768 rfl rfl).symm k) = ix2 r k := funext fun a => Fin.ext (by
    match a with
    | ⟨0, _⟩ => exact mm2_lhs0 _ _
    | ⟨1, _⟩ => exact (dot_S1024x768_S768x768_S1024x768_1_0_0_1_n_n.lhsIdx_val_of_single rfl _ _).trans hk)
  have er : dot_S1024x768_S768x768_S1024x768_1_0_0_1_n_n.rhsIdx (ix2 r e) ((contrEquiv1 dot_S1024x768_S768x768_S1024x768_1_0_0_1_n_n 768 rfl rfl).symm k) = ix2 k e := funext fun a => Fin.ext (by
    match a with
    | ⟨0, _⟩ => exact (dot_S1024x768_S768x768_S1024x768_1_0_0_1_n_n.rhsIdx_val_of_single rfl _ _).trans hk
    | ⟨1, _⟩ => exact mm2_rhs1 _ _)
  rw [el, er]

/-! ## One run at an entry -/

/-- The zero block's entries are the extended real zero. -/
theorem zeroAcc_apply (i : S1024x768.Idx) : zeroAcc (F := Ideal) i = 0 := Ideal.ofBits_zero_f32

/-- One run at row `r`, channel `e`: the accumulator there plus the run's 768 rectified hidden units weighted by `W2`. -/
theorem layer_apply (x0 : Vec Ideal S1024x8 .f32) (W1 : Vec Ideal S8x768 .bf16) (B1 : Vec Ideal S1x768 .f32)
    (W2 : Vec Ideal S768x768 .bf16) (acc : FVec Ideal S1024x768 .f32) (r : Fin 1024) (e : Fin 768) :
    layer (F := Ideal) x0 W1 B1 W2 acc (ix2 r e)
      = acc (ix2 r e) + ∑ j : Fin 768,
          max ((∑ q : Fin 8, Ideal.cos (x0 (ix2 r q)) * W1 (ix2 q j)) + B1 (ix2 (0 : Fin 1) j)) 0 * W2 (ix2 j e) := by
  unfold layer
  rw [addf_apply, mm2_apply]
  refine congrArg (acc (ix2 r e) + ·) (Finset.sum_congr rfl fun j _ => ?_)
  rw [truncf_apply, maximumf_apply, addf_apply, mm1_apply, broadcastTo_1b_ab_apply, broadcast_apply]
  show max (_ + _) (Ideal.ofBits .f32 0x00000000#32) * _ = _
  rw [Ideal.ofBits_zero_f32]
  rfl

end Cert.KernelIdeal.Body

end
-- ==== Proof.BodyIdx.lean ====
/-
  The body's output block at an entry, over the extended reals: ONE sum over the 3072 hidden units.

  A run's columns of the first weight, slice of the first bias and rows of the second weight are those arrays read
  768 c further along, so run `c` contributes the hidden units `768 c + j`. The four runs added in order to the zero
  block are therefore the whole sum over the hidden units: at row `r` and channel `e` the block holds
      (∑ f < 3072, max ((∑ q < 8, cos x (r, q) · W1 (q, f)) + b1 f) 0 · W2 (f, e)) + b2 e.
-/
import proofs.«175991_j65481071398675_2_alg».proof.Proof.LayerIdx
import proofs.«175991_j65481071398675_2_alg».proof.Proof.Spec

set_option maxRecDepth 16384

noncomputable section

open Idealize.ShloMosaic Idealize.ShloMosaic.TcCoe Idealize.SL.Sem Idealize.ShloMosaic.Tactic

namespace Cert.KernelIdeal.Body

open Cert.KernelIdeal Cert.KernelIdeal.Gen Idealize.ShloMosaic.ValueIdx

variable {F : FTy → Type} [FloatOps F]

/-- A run's columns of the first weight are the weight's columns `o` further along. -/
theorem w1Run_apply (x1 : Vec F S8x3072 .bf16) (o : Nat) (h : o + 768 ≤ 3072) (q : Fin 8) (j : Fin 768) :
    w1Run x1 o h (ix2 q j) = x1 (ix2 q (⟨o + j.val, by have := j.isLt; omega⟩ : Fin 3072)) := by
  unfold w1Run
  show x1 _ = x1 _
  refine congrArg x1 (funext fun a => Fin.ext ?_)
  match a with
  | ⟨0, _⟩ => show 0 + 1 * q.val = q.val; omega
  | ⟨1, _⟩ => show o + 1 * j.val = o + j.val; omega

/-- A run's slice of the first bias, likewise. -/
theorem b1Run_apply (x2 : Vec F S1x3072 .f32) (o : Nat) (h : o + 768 ≤ 3072) (u : Fin 1) (j : Fin 768) :
    b1Run x2 o h (ix2 u j) = x2 (ix2 u (⟨o + j.val, by have := j.isLt; omega⟩ : Fin 3072)) := by
  unfold b1Run
  show x2 _ = x2 _
  refine congrArg x2 (funext fun a => Fin.ext ?_)
  match a with
  | ⟨0, _⟩ => show 0 + 1 * u.val = u.val; omega
  | ⟨1, _⟩ => show o + 1 * j.val = o + j.val; omega

/-- A run's rows of the second weight are the weight's rows `o` further down. -/
theorem w2Run_apply (x3 : Vec F S3072x768 .bf16) (o : Nat) (h : o + 768 ≤ 3072) (j : Fin 768) (e : Fin 768) :
    w2Run x3 o h (ix2 j e) = x3 (ix2 (⟨o + j.val, by have := j.isLt; omega⟩ : Fin 3072) e) := by
  unfold w2Run
  show x3 _ = x3 _
  refine congrArg x3 (funext fun a => Fin.ext ?_)
  match a with
  | ⟨0, _⟩ => show o + 1 * j.val = o + j.val; omega
  | ⟨1, _⟩ => show 0 + 1 * e.val = e.val; omega

/-- Hidden unit `f`'s contribution at row `r`, channel `e`, from an array of token rows (a block's 1024, or all 16384),
    the folded first weight, the first bias as a row and the transposed second weight. -/
def contrib {n : Nat} (x0 : (⟨2, ![n, 8]⟩ : Shape).Idx → EReal) (x1 : S8x3072.Idx → EReal) (x2 : S1x3072.Idx → EReal)
    (x3 : S3072x768.Idx → EReal) (r : Fin n) (e : Fin 768) (f : Fin 3072) : EReal :=
  max ((∑ q : Fin 8, Ideal.cos (x0 (ix2 r q)) * x1 (ix2 q f)) + x2 (ix2 (0 : Fin 1) f)) 0 * x3 (ix2 f e)

/-- Run `c`, whose loads start `768 c` along, sums the contributions of the hidden units `768 c + j`. -/
theorem run_sum (x0 : Vec Ideal S1024x8 .f32) (x1 : Vec Ideal S8x3072 .bf16) (x2 : Vec Ideal S1x3072 .f32)
    (x3 : Vec Ideal S3072x768 .bf16) (r : Fin 1024) (e : Fin 768) (c : Fin 4) (o : Nat) (ho : o = c.val * 768)
    (h : o + 768 ≤ 3072) :
    (∑ j : Fin 768, max ((∑ q : Fin 8, Ideal.cos (x0 (ix2 r q)) * w1Run x1 o h (ix2 q j))
        + b1Run x2 o h (ix2 (0 : Fin 1) j)) 0 * w2Run x3 o h (ix2 j e))
      = ∑ j : Fin 768, contrib x0 x1 x2 x3 r e (Spec.unit c j) := by
  subst ho
  refine Finset.sum_congr rfl fun j _ => ?_
  unfold contrib
  rw [b1Run_apply, w2Run_apply]
  simp only [w1Run_apply]
  rfl

/-- THE BLOCK AT AN ENTRY: the sum of all 3072 contributions plus the second bias. -/
theorem body_apply (x0 : Vec Ideal S1024x8 .f32) (x1 : Vec Ideal S8x3072 .bf16) (x2 : Vec Ideal S1x3072 .f32)
    (x3 : Vec Ideal S3072x768 .bf16) (x4 : Vec Ideal S1x768 .f32) (r : Fin 1024) (e : Fin 768) :
    body (F := Ideal) x0 x1 x2 x3 x4 (ix2 r e)
      = (∑ f : Fin 3072, contrib x0 x1 x2 x3 r e f) + x4 (ix2 (0 : Fin 1) e) := by
  unfold body
  rw [addf_apply, broadcastTo_1b_ab_apply, layer_apply, layer_apply, layer_apply, layer_apply, zeroAcc_apply,
    run_sum x0 x1 x2 x3 r e 0 0 rfl, run_sum x0 x1 x2 x3 r e 1 768 rfl, run_sum x0 x1 x2 x3 r e 2 1536 rfl,
    run_sum x0 x1 x2 x3 r e 3 2304 rfl, ← Spec.sum_runs]

/-- The same at any index of the block. -/
theorem body_apply_idx (x0 : Vec Ideal S1024x8 .f32) (x1 : Vec Ideal S8x3072 .bf16) (x2 : Vec Ideal S1x3072 .f32)
    (x3 : Vec Ideal S3072x768 .bf16) (x4 : Vec Ideal S1x768 .f32) (y : S1024x768.Idx) :
    body (F := Ideal) x0 x1 x2 x3 x4 y
      = (∑ f : Fin 3072, contrib x0 x1 x2 x3 (y 0) (y 1) f) + x4 (ix2 (0 : Fin 1) (y 1)) := by
  obtain ⟨r, e, rfl⟩ : ∃ (r : Fin 1024) (e : Fin 768), y = ix2 r e := ⟨y 0, y 1, eq_ix2 y⟩
  exact body_apply x0 x1 x2 x3 x4 r e

end Cert.KernelIdeal.Body

end
-- ==== Proof.Entry.lean ====
/-
  The arrays the kernel's windows find on entry, as functions of the six arguments.

  Before the launch the host slices the eight leading channels of `x` and flattens the tokens (row `2048 b + s` is
  token `(b, s)`), transposes `w1` and multiplies row `q` by cos θ q, transposes `w2`, and writes the two biases as
  single rows; the conversions to the narrower float format are the identity over the extended reals.
-/
import proofs.«175991_j65481071398675_2_alg».proof.Proof.Gen.KernelIdeal.Frame
import proofs.«175991_j65481071398675_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.Tactic

namespace Cert.KernelIdeal.Entry

open Cert.KernelIdeal Cert.KernelIdeal.Gen Idealize.ShloMosaic.ValueIdx

/-- Token `(b, s)` as a row of the flattened [16384, ·] arrays. -/
abbrev tok (b : Fin 8) (s : Fin 2048) : Fin 16384 := ⟨b.val * 2048 + s.val, by have := b.isLt; have := s.isLt; omega⟩

section Terms

variable {F : FTy → Type} [FloatOps F]
variable (m : (ℓ : Loc nD τ sig) → Buf (Elt F) ℓ)

/-- The token window's array: the leading channels of `x`, tokens flattened. -/
theorem tokens_eq (c : Dev nD) : (V m c main_v1 : S16384x8.Idx → Elt F .f32)
    = shapeCast S16384x8 (extractStridedSlice S8x2048x8 ![0, 0, 0] (m ((c : Thread nD τ).loc main_arg0)) slices_S8x2048x768_S8x2048x8_0_0_0)
        shapeCasts_S8x2048x8_S16384x8 := by
  show StableHlo.after hostOps0 (fun b => m (c, b)) (Proc.devRef .tc main_v1) = _
  after_results <;> rfl

/-- The first weight's array: `w1` transposed, row `q` scaled by cos θ q. -/
theorem w1f_eq (c : Dev nD) : (V m c main_v7 : S8x3072.Idx → Elt F .bf16)
    = truncf .bf16 (mulf (transpose S8x3072 [1, 0] (m ((c : Thread nD τ).loc main_arg2)) transposes_S3072x8_S8x3072_1_0)
        (broadcastInDim S8x3072 ![0, 1] bcast_S8x1_S8x3072_0_1
          (broadcastInDim S8x1 ![0] bcast_S8_S8x1_0 (Host.cos (m ((c : Thread nD τ).loc main_arg1)))))) bitsLt_bf16_f32 := by
  show StableHlo.after hostOps0 (fun b => m (c, b)) (Proc.devRef .tc main_v7) = _
  after_results <;> rfl

/-- The first bias's array: `b1` as one row. -/
theorem b1row_eq (c : Dev nD) : (V m c main_v10 : S1x3072.Idx → Elt F .f32)
    = shapeCast S1x3072 (m ((c : Thread nD τ).loc main_arg3)) shapeCasts_S3072_S1x3072 := by
  show StableHlo.after hostOps0 (fun b => m (c, b)) (Proc.devRef .tc main_v10) = _
  after_results <;> rfl

/-- The second weight's array: `w2` transposed. -/
theorem w2t_eq (c : Dev nD) : (V m c main_v9 : S3072x768.Idx → Elt F .bf16)
    = truncf .bf16 (transpose S3072x768 [1, 0] (m ((c : Thread nD τ).loc main_arg4)) transposes_S768x3072_S3072x768_1_0) bitsLt_bf16_f32 := by
  show StableHlo.after hostOps0 (fun b => m (c, b)) (Proc.devRef .tc main_v9) = _
  after_results <;> rfl

/-- The second bias's array: `b2` as one row. -/
theorem b2row_eq (c : Dev nD) : (V m c main_v11 : S1x768.Idx → Elt F .f32)
    = shapeCast S1x768 (m ((c : Thread nD τ).loc main_arg5)) shapeCasts_S768_S1x768 := by
  show StableHlo.after hostOps0 (fun b => m (c, b)) (Proc.devRef .tc main_v11) = _
  after_results <;> rfl

end Terms

section AtIndex

variable (m : (ℓ : Loc nD τ sig) → Buf (Elt Ideal) ℓ)

/-- The six arguments on core `c`, as arrays of extended reals: `x`, `θ`, `w1`, `b1`, `w2`, `b2`. -/
abbrev argX (c : Dev nD) : S8x2048x768.Idx → EReal := m ((c : Thread nD τ).loc main_arg0)
abbrev argTheta (c : Dev nD) : S8.Idx → EReal := m ((c : Thread nD τ).loc main_arg1)
abbrev argW1 (c : Dev nD) : S3072x8.Idx → EReal := m ((c : Thread nD τ).loc main_arg2)
abbrev argB1 (c : Dev nD) : S3072.Idx → EReal := m ((c : Thread nD τ).loc main_arg3)
abbrev argW2 (c : Dev nD) : S768x3072.Idx → EReal := m ((c : Thread nD τ).loc main_arg4)
abbrev argB2 (c : Dev nD) : S768.Idx → EReal := m ((c : Thread nD τ).loc main_arg5)

/-- Row `2048 b + s`, channel `q` of the token array is `x (b, s, q)`. -/
theorem tokens_apply (c : Dev nD) (b : Fin 8) (s : Fin 2048) (q : Fin 8) :
    (V m c main_v1 : S16384x8.Idx → Elt Ideal .f32) (ix2 (tok b s) q) = argX m c (ix3 b s (Spec.lead q)) := by
  rw [tokens_eq, shapeCast_apply _ shapeCasts_S8x2048x8_S16384x8 (ix2 (tok b s) q) (ix3 b s q) (by
    rw [Shape.rowMajor_val_three, Shape.rowMajor_val_two]
    show (b.val * 2048 + s.val) * 8 + q.val = (b.val * 2048 + s.val) * 8 + q.val
    rfl)]
  exact extractStridedSlice_apply ![0, 0, 0] _ slices_S8x2048x768_S8x2048x8_0_0_0 (ix3 b s q) (ix3 b s (Spec.lead q))
    (fun a => match a with
      | ⟨0, _⟩ => by show b.val = 0 + b.val; omega
      | ⟨1, _⟩ => by show s.val = 0 + s.val; omega
      | ⟨2, _⟩ => by show q.val = 0 + q.val; omega)

/-- Entry `(q, f)` of the first weight's array is `w1 (f, q) · cos θ q`. -/
theorem w1f_apply (c : Dev nD) (q : Fin 8) (f : Fin 3072) :
    (V m c main_v7 : S8x3072.Idx → Elt Ideal .bf16) (ix2 q f)
      = argW1 m c (ix2 f q) * Ideal.cos (argTheta m c (ix1 q)) := by
  rw [w1f_eq, truncf_apply, mulf_apply, transpose_ix2_apply,
    broadcastInDim_apply _ bcast_S8x1_S8x3072_0_1 _ (ix2 q f) (ix2 q (0 : Fin 1)) (fun a => match a with
      | ⟨0, _⟩ => by show q.val = if (8 : Nat) = 1 then 0 else q.val; rw [if_neg (by decide)]
      | ⟨1, _⟩ => by show 0 = if (1 : Nat) = 1 then 0 else f.val; rw [if_pos rfl]),
    broadcastInDim_apply _ bcast_S8_S8x1_0 _ (ix2 q (0 : Fin 1)) (ix1 q) (fun a => match a with
      | ⟨0, _⟩ => by show q.val = if (8 : Nat) = 1 then 0 else q.val; rw [if_neg (by decide)])]
  rfl

/-- Entry `(0, f)` of the first bias's array is `b1 f`. -/
theorem b1row_apply (c : Dev nD) (u : Fin 1) (f : Fin 3072) :
    (V m c main_v10 : S1x3072.Idx → Elt Ideal .f32) (ix2 u f) = argB1 m c (ix1 f) := by
  rw [b1row_eq]
  exact shapeCast_a_1a_apply _ _ u f

/-- Entry `(f, e)` of the second weight's array is `w2 (e, f)`. -/
theorem w2t_apply (c : Dev nD) (f : Fin 3072) (e : Fin 768) :
    (V m c main_v9 : S3072x768.Idx → Elt Ideal .bf16) (ix2 f e) = argW2 m c (ix2 e f) := by
  rw [w2t_eq, truncf_apply, transpose_ix2_apply]

/-- Entry `(0, e)` of the second bias's array is `b2 e`. -/
theorem b2row_apply (c : Dev nD) (u : Fin 1) (e : Fin 768) :
    (V m c main_v11 : S1x768.Idx → Elt Ideal .f32) (ix2 u e) = argB2 m c (ix1 e) := by
  rw [b2row_eq]
  exact shapeCast_a_1a_apply _ _ u e

end AtIndex

end Cert.KernelIdeal.Entry

end
-- ==== Proof.Blocks.lean ====
/-
  From the blocks to the call's whole result array.

  The grid has 16 points. Point `t` sees rows `1024 t … 1024 t + 1023` of the token array and writes the same rows of the
  result; the two weights and the two biases are single blocks, the whole arrays, at every point. So what point `t`
  writes back is rows `1024 t …` of ONE function of the five arrays the call finds on entry, the 16 row blocks tile the
  16384 rows, and the result array ends holding that function.
-/
import proofs.«175991_j65481071398675_2_alg».proof.Proof.BodyIdx
import proofs.«175991_j65481071398675_2_alg».proof.Proof.Entry

set_option maxRecDepth 16384

noncomputable section

open Idealize.ShloMosaic Idealize.ShloMosaic.TcCoe Idealize.SL.Sem Idealize.ShloMosaic.Tactic

namespace Cert.KernelIdeal.Blocks

open Cert.KernelIdeal Cert.KernelIdeal.Gen Idealize.ShloMosaic.ValueIdx
open Idealize.ShloMosaic.Pipeline (Dat)

variable (m : (ℓ : Loc nD τ sig) → Buf (Elt Ideal) ℓ)

/-- The call's result array as one function of the arrays it finds on entry: row `R`, channel `e` is the sum over the
    hidden units of their contributions from token row `R`, plus the second bias. -/
def flat (X1 : S16384x8.Idx → EReal) (X7 : S8x3072.Idx → EReal) (X10 : S1x3072.Idx → EReal) (X9 : S3072x768.Idx → EReal)
    (X11 : S1x768.Idx → EReal) : S16384x768.Idx → EReal := fun j =>
  (∑ f : Fin 3072, Body.contrib X1 X7 X10 X9 (j 0) (j 1) f) + X11 (ix2 (0 : Fin 1) (j 1))

/-- The printed index maps over the grid: the token window and the result window are at row block `t`, every other
    window at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each window's block, read off its array -/

/-- Row `r` of the token block at point `t` is row `1024 t + r` of the token array. -/
theorem tokens_blk (c : Dev nD) (t : Fin cfg0.N) (r : Fin 1024) (q : Fin 8) (R : Fin 16384) (hR : R.val = t.val * 1024 + r.val) :
    (iblk m c 0 t : Vec Ideal S1024x8 .f32) (ix2 r q) = (V m c main_v1 : S16384x8.Idx → EReal) (ix2 R q) := by
  obtain ⟨e0, e1, -⟩ := idx_facts t
  unfold iblk
  rw [View.read_apply]
  show V m c main_v1 (((cfg0.win 0).blk t).view.emb (ix2 r q)) = V m c main_v1 (ix2 R q)
  refine congrArg (V m c main_v1) (funext fun a => Fin.ext ?_)
  match a with
  | ⟨0, _⟩ => show win0_0.index t (0 : Fin 2) * 1024 + 1 * r.val = R.val; rw [e0, hR]; omega
  | ⟨1, _⟩ => show win0_0.index t (1 : Fin 2) * 8 + 1 * q.val = q.val; rw [e1]; omega

/-- The first weight's block is its whole array, at every point. -/
theorem w1f_blk (c : Dev nD) (t : Fin cfg0.N) : (iblk m c 1 t : Vec Ideal S8x3072 .bf16) = (V m c main_v7 : S8x3072.Idx → EReal) := by
  obtain ⟨-, -, e0, e1, -⟩ := idx_facts t
  funext j
  unfold iblk
  rw [View.read_apply]
  show V m c main_v7 (((cfg0.win 1).blk t).view.emb j) = V m c main_v7 j
  refine congrArg (V m c main_v7) (funext fun a => Fin.ext ?_)
  match a with
  | ⟨0, _⟩ => show win0_1.index t (0 : Fin 2) * 8 + 1 * (j 0).val = (j 0).val; rw [e0]; omega
  | ⟨1, _⟩ => show win0_1.index t (1 : Fin 2) * 3072 + 1 * (j 1).val = (j 1).val; rw [e1]; omega

/-- The first bias's block is its whole array. -/
theorem b1row_blk (c : Dev nD) (t : Fin cfg0.N) : (iblk m c 2 t : Vec Ideal S1x3072 .f32) = (V m c main_v10 : S1x3072.Idx → EReal) := by
  obtain ⟨-, -, -, -, e0, e1, -⟩ := idx_facts t
  funext j
  unfold iblk
  rw [View.read_apply]
  show V m c main_v10 (((cfg0.win 2).blk t).view.emb j) = V m c main_v10 j
  refine congrArg (V m c main_v10) (funext fun a => Fin.ext ?_)
  match a with
  | ⟨0, _⟩ => show win0_2.index t (0 : Fin 2) * 1 + 1 * (j 0).val = (j 0).val; rw [e0]; omega
  | ⟨1, _⟩ => show win0_2.index t (1 : Fin 2) * 3072 + 1 * (j 1).val = (j 1).val; rw [e1]; omega

/-- The second weight's block is its whole array. -/
theorem w2t_blk (c : Dev nD) (t : Fin cfg0.N) : (iblk m c 3 t : Vec Ideal S3072x768 .bf16) = (V m c main_v9 : S3072x768.Idx → EReal) := by
  obtain ⟨-, -, -, -, -, -, e0, e1, -⟩ := idx_facts t
  funext j
  unfold iblk
  rw [View.read_apply]
  show V m c main_v9 (((cfg0.win 3).blk t).view.emb j) = V m c main_v9 j
  refine congrArg (V m c main_v9) (funext fun a => Fin.ext ?_)
  match a with
  | ⟨0, _⟩ => show win0_3.index t (0 : Fin 2) * 3072 + 1 * (j 0).val = (j 0).val; rw [e0]; omega
  | ⟨1, _⟩ => show win0_3.index t (1 : Fin 2) * 768 + 1 * (j 1).val = (j 1).val; rw [e1]; omega

/-- The second bias's block is its whole array. -/
theorem b2row_blk (c : Dev nD) (t : Fin cfg0.N) : (iblk m c 4 t : Vec Ideal S1x768 .f32) = (V m c main_v11 : S1x768.Idx → EReal) := by
  obtain ⟨-, -, -, -, -, -, -, -, e0, e1, -⟩ := idx_facts t
  funext j
  unfold iblk
  rw [View.read_apply]
  show V m c main_v11 (((cfg0.win 4).blk t).view.emb j) = V m c main_v11 j
  refine congrArg (V m c main_v11) (funext fun a => Fin.ext ?_)
  match a with
  | ⟨0, _⟩ => show win0_4.index t (0 : Fin 2) * 1 + 1 * (j 0).val = (j 0).val; rw [e0]; omega
  | ⟨1, _⟩ => show win0_4.index t (1 : Fin 2) * 768 + 1 * (j 1).val = (j 1).val; rw [e1]; omega

/-- Entry `(r, e)` of the result block at point `t` sits at row `1024 t + r`, channel `e` of the result array. -/
theorem result_emb (t : Fin cfg0.N) (r : Fin 1024) (e : Fin 768) (R : Fin 16384) (hR : R.val = t.val * 1024 + r.val) :
    ((cfg0.win 5).blk t).view.emb (ix2 r e) = (ix2 R e : S16384x768.Idx) := by
  obtain ⟨-, -, -, -, -, -, -, -, -, -, e0, e1⟩ := idx_facts t
  refine funext fun a => Fin.ext ?_
  match a with
  | ⟨0, _⟩ => show win0_5.index t (0 : Fin 2) * 1024 + 1 * r.val = R.val; rw [e0, hR]; omega
  | ⟨1, _⟩ => show win0_5.index t (1 : Fin 2) * 768 + 1 * e.val = e.val; rw [e1]; omega

/-! ## What a point writes back, the cover, the array -/

/-- WHAT POINT `t` WRITES BACK is its block of `flat` of the arrays the call finds on entry. -/
theorem flushed_eq (c : Dev nD) (t : Fin cfg0.N) :
    (dats m 0 c).flushed 5 t = ((cfg0.win 5).blk t).view.read (Elt Ideal)
      (flat (V m c main_v1) (V m c main_v7) (V m c main_v10) (V m c main_v9) (V m c main_v11)) := by
  have hN : cfg0.N = 16 := N_0
  show (cfg0.win 5).cut (grid0.coords t) ((dats m 0 c).after 5 t) = _
  rw [after0_5]
  unfold outsAt0
  rw [Body.out_eq]
  funext y
  obtain ⟨r, e, rfl⟩ : ∃ (r : Fin 1024) (e : Fin 768), y = ix2 r e := ⟨y 0, y 1, eq_ix2 y⟩
  have ht : t.val < 16 := hN ▸ t.isLt
  obtain ⟨R, hR⟩ : ∃ R : Fin 16384, R.val = t.val * 1024 + r.val := ⟨⟨t.val * 1024 + r.val, by have := r.isLt; omega⟩, rfl⟩
  rw [View.read_apply, result_emb t r e R hR]
  show Body.body (iblk m c 0 t) (iblk m c 1 t) (iblk m c 2 t) (iblk m c 3 t) (iblk m c 4 t) (ix2 r e) = _
  refine (Body.body_apply (iblk m c 0 t) (iblk m c 1 t) (iblk m c 2 t) (iblk m c 3 t) (iblk m c 4 t) r e).trans ?_
  rw [w1f_blk m c t, b1row_blk m c t, w2t_blk m c t, b2row_blk m c t]
  unfold flat Body.contrib
  simp only [tokens_blk m c t r _ R hR]
  rfl

/-- An index of the result array is in point `t`'s block iff each coordinate is in the block's range on its axis. -/
theorem mem_blk (t : Fin cfg0.N) (i : S16384x768.Idx) :
    i ∈ ((cfg0.win 5).blk t).view.set ↔ ∀ a : Fin 2, win0_5.index t a * S1024x768.size a ≤ (i a).val
      ∧ (i a).val < win0_5.index t a * S1024x768.size a + S1024x768.size a := by
  show i ∈ ((View.whole main_v12).slice (win0_5.rect t)).set ↔ _
  rw [View.set_slice_whole, Rect.mem_set_unit]
  exact Iff.rfl

/-- Every row of the result array is in the block of the point `row / 1024`. -/
theorem cover (i : S16384x768.Idx) : ∃ t : Fin cfg0.N, (cfg0.win 5).flush t = true ∧ i ∈ ((cfg0.win 5).blk t).view.set := by
  have hN : cfg0.N = 16 := N_0
  have hi0 : (i 0).val < 16384 := (i 0).isLt
  have hi1 : (i 1).val < 768 := (i 1).isLt
  obtain ⟨t, ht⟩ : ∃ t : Fin cfg0.N, t.val = (i 0).val / 1024 := ⟨⟨(i 0).val / 1024, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    rw [e0, ht]; omega
  | ⟨1, _⟩ =>
    show win0_5.index t (1 : Fin 2) * 768 ≤ (i 1).val ∧ (i 1).val < win0_5.index t (1 : Fin 2) * 768 + 768
    rw [e1]; omega

/-- THE RESULT ARRAY after the call: `flat` of the arrays the call finds on entry. -/
theorem final (c : Dev nD) : (dats m 0 c).arrAt 5 cfg0.N
    = flat (V m c main_v1) (V m c main_v7) (V m c main_v10) (V m c main_v9) (V m c main_v11) :=
  (dats m 0 c).arrAt_eq_of_cover 5 _ (fun t _ => flushed_eq m c t) cover

end Cert.KernelIdeal.Blocks

end
-- ==== Proof.Result.lean ====
/-
  The kernel program's run, read: its result is `G` of the six arguments.

  After the call the host unflattens the tokens (row `2048 b + s` back to token `(b, s)`). Substituting what the call's
  windows found on entry — token rows of `x`, `w1 (f, q) · cos θ q`, `b1`, `w2 (e, f)`, `b2` — into the call's result
  gives, per hidden unit, the pre-activation with cos θ folded into the weight, which is the reference's
  (re-association and commutation of the products), hence `G`.
-/
import proofs.«175991_j65481071398675_2_alg».proof.Proof.Blocks

set_option maxRecDepth 16384

noncomputable section

open Idealize.ShloMosaic Idealize.ShloMosaic.TcCoe Idealize.SL.Sem Idealize.ShloMosaic.Tactic

namespace Cert.KernelIdeal.Result

open Cert.KernelIdeal Cert.KernelIdeal.Gen Idealize.ShloMosaic.ValueIdx

variable (m : (ℓ : Loc nD τ sig) → Buf (Elt Ideal) ℓ) (ρ : Dev nD → PrngReg)

/-- Row `2048 b + s`, channel `e` of the call's result is `G (b, s, e)` of the arguments. -/
theorem flat_eq_G (c : Dev nD) (b : Fin 8) (s : Fin 2048) (e : Fin 768) :
    (Blocks.flat (V m c main_v1) (V m c main_v7) (V m c main_v10) (V m c main_v9) (V m c main_v11)) (ix2 (Entry.tok b s) e) = Spec.G (Entry.argX m c) (Entry.argTheta m c) (Entry.argW1 m c) (Entry.argB1 m c) (Entry.argW2 m c) (Entry.argB2 m c) (ix3 b s e) := by
  show (∑ f : Fin 3072, Body.contrib (V m c main_v1) (V m c main_v7) (V m c main_v10) (V m c main_v9) (Entry.tok b s) e f)
      + (V m c main_v11 : S1x768.Idx → EReal) (ix2 (0 : Fin 1) e)
    = (∑ f : Fin 3072, Spec.term (Entry.argX m c) (Entry.argTheta m c) (Entry.argW1 m c) (Entry.argB1 m c) (Entry.argW2 m c) b s e f) + Entry.argB2 m c (ix1 e)
  rw [Entry.b2row_apply]
  refine congrArg (· + Entry.argB2 m c (ix1 e)) (Finset.sum_congr rfl fun f _ => ?_)
  unfold Body.contrib Spec.term
  rw [Entry.b1row_apply, Entry.w2t_apply, ← Spec.preFolded_eq]
  unfold Spec.preFolded
  have hq : ∀ q : Fin 8,
      Ideal.cos ((V m c main_v1 : S16384x8.Idx → EReal) (ix2 (Entry.tok b s) q)) * (V m c main_v7 : S8x3072.Idx → EReal) (ix2 q f)
        = Ideal.cos (Entry.argX m c (ix3 b s (Spec.lead q)))
            * (Entry.argW1 m c (ix2 f q) * Ideal.cos (Entry.argTheta m c (ix1 q))) :=
    fun q => by rw [Entry.tokens_apply, Entry.w1f_apply]
  exact congrArg (fun z => max (z + Entry.argB1 m c (ix1 f)) 0 * Entry.argW2 m c (ix2 e f))
    (Finset.sum_congr rfl fun q _ => hq q)

/-- The program's result: the call's result array with the tokens unflattened. -/
theorem tail_eq (c : Dev nD) :
    Pipeline.afterTail₀ cfgs (dats m) 0 (V0 m) [hostOps1] c main_v13 = Spec.G (Entry.argX m c) (Entry.argTheta m c) (Entry.argW1 m c) (Entry.argB1 m c) (Entry.argW2 m c) (Entry.argB2 m c) := by
  unfold Pipeline.afterTail₀
  show StableHlo.after hostOps1 _ (Proc.devRef .tc main_v13) = _
  after_results
  have hcall : Pipeline.withArrays (cfgs 0).spec c (V0 m c) (fun w => (dats m 0 c).arrAt w (cfgs 0).N) (Proc.devRef .tc main_v12)
      = (Blocks.flat (V m c main_v1) (V m c main_v7) (V m c main_v10) (V m c main_v9) (V m c main_v11)) :=
    (Pipeline.withArrays_arr spec0 launch0.win.arr_inj c _ _ 5).trans (Blocks.final m c)
  funext i
  obtain ⟨b, s, e, rfl⟩ : ∃ (b : Fin 8) (s : Fin 2048) (e : Fin 768), i = ix3 b s e := ⟨i 0, i 1, i 2, eq_ix3 i⟩
  show shapeCast S8x2048x768 (Pipeline.withArrays (cfgs 0).spec c (V0 m c) (fun w => (dats m 0 c).arrAt w (cfgs 0).N)
      (Proc.devRef .tc main_v12)) shapeCasts_S16384x768_S8x2048x768 (ix3 b s e) = _
  rw [shapeCast_apply _ shapeCasts_S16384x768_S8x2048x768 (ix3 b s e) (ix2 (Entry.tok b s) e) (by
    rw [Shape.rowMajor_val_two, Shape.rowMajor_val_three]
    rfl)]
  exact (congrFun hcall _).trans (flat_eq_G m c b s e)

/-- THE RUN of the kernel program over the extended reals: every weakly fair execution terminates with the result at
    `G` of the six arguments and the arguments unchanged. -/
theorem run : θ_run defs (onTc (τ := τ) (main (F := Ideal))) ⟨m, fun _ => 0, ρ⟩ fun r => ∀ c : Dev nD,
      r.2.mem ((c.tc : Thread nD τ).loc main_v13) = Spec.G (Entry.argX m c) (Entry.argTheta m c) (Entry.argW1 m c) (Entry.argB1 m c) (Entry.argW2 m c) (Entry.argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.lean ====
/-
  The kernel and its reference compute one function over the extended reals.

  For a token (b, s) and an output channel e both programs end with
      (∑ f < 3072, max ((∑ q < 8, (cos x (b, s, q) · cos θ q) · w1 (f, q)) + b1 f) 0 · w2 (e, f)) + b2 e
  (Proof/Spec.lean, `G`). The reference computes it in this arrangement (Proof/RefIsG.lean). The kernel multiplies
  cos θ into the transposed first weight before its call, handles 1024 tokens per grid point, and inside a point adds the
  hidden units to a zeroed accumulator in four runs of 768: per entry the same products re-associated and commuted, and
  the same sum split into four consecutive runs added to a zero. Multiplication and addition of extended reals are
  commutative monoids, infinities included, so nothing here needs the inputs to be finite; the changes of float format
  are the identity over the extended reals. Proof/Body.lean reads the body's output block as a function of its input
  blocks, Proof/LayerIdx.lean and Proof/BodyIdx.lean read it at an entry, Proof/Entry.lean says what the call finds on
  entry, Proof/Blocks.lean passes from the sixteen row blocks to the call's result array, and Proof/Result.lean
  unflattens the tokens and meets `G`.
  The three frames: the two kernel programs' are the generated ones, the reference's is its generated run with the result
  dropped. The idealization rewrote nothing, so there is nothing to preserve.
-/
import proofs.«175991_j65481071398675_2_alg».proof.Defs
import proofs.«175991_j65481071398675_2_alg».proof.Proof.Gen.Kernel
import proofs.«175991_j65481071398675_2_alg».proof.Proof.Gen.Kernel.Frame
import proofs.«175991_j65481071398675_2_alg».proof.Proof.Gen.KernelIdeal
import proofs.«175991_j65481071398675_2_alg».proof.Proof.Gen.KernelIdeal.Frame
import proofs.«175991_j65481071398675_2_alg».proof.Proof.Gen.ReferenceIdeal
import proofs.«175991_j65481071398675_2_alg».proof.Proof.Gen.Pre_finite_inputs
import proofs.«175991_j65481071398675_2_alg».proof.Proof.Gen.ReferenceIdeal.Run
import proofs.«175991_j65481071398675_2_alg».proof.Proof.Gen.ReferenceIdeal.Read
import proofs.«175991_j65481071398675_2_alg».proof.Proof.RefIsG
import proofs.«175991_j65481071398675_2_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel program ends with its result at `G` of its arguments (Proof/Result.lean) and the
    reference with its result at `G` of its own (Proof/RefIsG.lean); the two memories agree on the arguments. -/
theorem algebraic : Cert.algebraic_KernelIdeal_ReferenceIdeal := by
  intro m ρ m' ρ' _ hagree
  refine ⟨fun c => Cert.Spec.G (Cert.KernelIdeal.Entry.argX m c) (Cert.KernelIdeal.Entry.argTheta m c)
      (Cert.KernelIdeal.Entry.argW1 m c) (Cert.KernelIdeal.Entry.argB1 m c) (Cert.KernelIdeal.Entry.argW2 m c)
      (Cert.KernelIdeal.Entry.argB2 m c), Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v14_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
